-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S640000 : Shape := ⟨1, ![640000]⟩
abbrev S256x128 : Shape := ⟨2, ![256, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S50000x128 .f32) (main_arg1 : IVec S640000 32) (main_arg2 : IVec S640000 32) (main_arg3 : FVec F S256x128 .f32) (main_arg4 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S256x128 .f32 := Host.absf main_arg3
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S50000x128 : Shape := ⟨2, ![50000, 128]⟩
abbrev S640000 : Shape := ⟨1, ![640000]⟩
abbrev S256x128 : Shape := ⟨2, ![256, 128]⟩
abbrev S128 : Shape := ⟨1, ![128]⟩
abbrev S_ : Shape := ⟨0, ![]⟩
abbrev S640000x1 : Shape := ⟨2, ![640000, 1]⟩
abbrev S640000x128 : Shape := ⟨2, ![640000, 128]⟩
abbrev S128x128 : Shape := ⟨2, ![128, 128]⟩
abbrev S6400x128 : Shape := ⟨2, ![6400, 128]⟩
abbrev S1x128 : Shape := ⟨2, ![1, 128]⟩
abbrev S5000x128 : Shape := ⟨2, ![5000, 128]⟩

abbrev nBuf : Space → Nat
  | .hbm => 34
  | .vmem => 15
  | .smem => 0
  | _ => 0

abbrev bufTy : (tb : Table) → Fin (tcTables nBuf tb) → BufTy
  | .hbm, ⟨0, _⟩ => ⟨S50000x128, .f32⟩
  | .hbm, ⟨1, _⟩ => ⟨S640000, .i32⟩
  | .hbm, ⟨2, _⟩ => ⟨S640000, .i32⟩
  | .hbm, ⟨3, _⟩ => ⟨S256x128, .f32⟩
  | .hbm, ⟨4, _⟩ => ⟨S128, .f32⟩
  | .hbm, ⟨5, _⟩ => ⟨S50000x128, .bf16⟩
  | .hbm, ⟨6, _⟩ => ⟨S_, .i32⟩
  | .hbm, ⟨7, _⟩ => ⟨S640000, .i32⟩
  | .hbm, ⟨8, _⟩ => ⟨S640000, .i1⟩
  | .hbm, ⟨9, _⟩ => ⟨S_, .i32⟩
  | .hbm, ⟨10, _⟩ => ⟨S640000, .i32⟩
  | .hbm, ⟨11, _⟩ => ⟨S640000, .i32⟩
  | .hbm, ⟨12, _⟩ => ⟨S640000, .i32⟩
  | .hbm, ⟨13, _⟩ => ⟨S640000x1, .i32⟩
  | .hbm, ⟨14, _⟩ => ⟨S640000x128, .bf16⟩
  | .hbm, ⟨15, _⟩ => ⟨S_, .i32⟩
  | .hbm, ⟨16, _⟩ => ⟨S640000, .i32⟩
  | .hbm, ⟨17, _⟩ => ⟨S640000, .i1⟩
  | .hbm, ⟨18, _⟩ => ⟨S_, .i32⟩
  | .hbm, ⟨19, _⟩ => ⟨S640000, .i32⟩
  | .hbm, ⟨20, _⟩ => ⟨S640000, .i32⟩
  | .hbm, ⟨21, _⟩ => ⟨S640000, .i32⟩
  | .hbm, ⟨22, _⟩ => ⟨S640000x1, .i32⟩
  | .hbm, ⟨23, _⟩ => ⟨S640000x128, .bf16⟩
  | .hbm, ⟨24, _⟩ => ⟨S128x128, .f32⟩
  | .hbm, ⟨25, _⟩ => ⟨S128x128, .bf16⟩
  | .hbm, ⟨26, _⟩ => ⟨S128x128, .f32⟩
  | .hbm, ⟨27, _⟩ => ⟨S128x128, .bf16⟩
  | .hbm, ⟨28, _⟩ => ⟨S640000x128, .f32⟩
  | .hbm, ⟨29, _⟩ => ⟨S_, .f32⟩
  | .hbm, ⟨30, _⟩ => ⟨S50000x128, .f32⟩
  | .hbm, ⟨31, _⟩ => ⟨S640000x1, .i32⟩
  | .hbm, ⟨32, _⟩ => ⟨S50000x128, .f32⟩
  | .hbm, ⟨33, _⟩ => ⟨S50000x128, .f32⟩
  | .local _ .vmem, ⟨0, _⟩ => ⟨S6400x128, .bf16⟩
  | .local _ .vmem, ⟨1, _⟩ => ⟨S6400x128, .bf16⟩
  | .local _ .vmem, ⟨2, _⟩ => ⟨S6400x128, .bf16⟩
  | .local _ .vmem, ⟨3, _⟩ => ⟨S6400x128, .bf16⟩
  | .local _ .vmem, ⟨4, _⟩ => ⟨S128x128, .bf16⟩
  | .local _ .vmem, ⟨5, _⟩ => ⟨S128x128, .bf16⟩
  | .local _ .vmem, ⟨6, _⟩ => ⟨S128, .f32⟩
  | .local _ .vmem, ⟨7, _⟩ => ⟨S6400x128, .f32⟩
  | .local _ .vmem, ⟨8, _⟩ => ⟨S6400x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S6400x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  bitsLt_bf16_f32 : FTy.bits .bf16 < FTy.bits .f32
  bcast_S_S640000 : S_.BroadcastsInDim S640000 (![] : Fin 0 → Fin S640000.rank)
  bcast_S640000_S640000x1_0 : S640000.BroadcastsInDim S640000x1 (![0] : Fin 1 → Fin S640000x1.rank)
  slices_S256x128_S128x128_0_0 : S256x128.Slices ![0, 0] S128x128
  slices_S256x128_S128x128_128_0 : S256x128.Slices ![128, 0] S128x128
  inb_S6400x128_S6400x128_0_0 : ∀ a, (![0, 0] : Fin 2 → Nat) a + S6400x128.size a ≤ S6400x128.size a
  h_S6400x128 : 0 < S6400x128.numel
  shapeCasts_S6400x128_S6400x128 : S6400x128.ShapeCasts S6400x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S6400x128 : S1x128.Broadcasts S6400x128
  bcast_S_S50000x128 : S_.BroadcastsInDim S50000x128 (![] : Fin 0 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  gather_S50000x128_S640000x1_S640000x128_1_0_n_n_0_1_1128_wf : GatherDims.WF S50000x128 S640000x1 S640000x128 [1] [0] [] [0] [] 1 ![1, 128]
  dot_S6400x128_S128x128_S6400x128_1_0_0_1_n_n_wf : DotDims.WF S6400x128 S128x128 S6400x128 [1] [0] [0] [1] [] []
  scatter_S50000x128_S640000x1_S640000x128_1_0_0_1_wf : ScatterDims.WF S50000x128 S640000x1 S640000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x128.size a ≤ S640000x128.size a
  hwx0_0 : ∀ i : grid0.Coords, EltTy.bits .bf16 = 32 ∨ (Rect.block (s := S640000x128) S6400x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x128.size a ≤ S640000x128.size a
  hwx0_1 : ∀ i : grid0.Coords, EltTy.bits .bf16 = 32 ∨ (Rect.block (s := S640000x128) S6400x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S6400x128.size a ≤ S640000x128.size a
  hwx0_5 : ∀ i : grid0.Coords, EltTy.bits .f32 = 32 ∨ (Rect.block (s := S640000x128) S6400x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def dot_S6400x128_S128x128_S6400x128_1_0_0_1_n_n : DotDims S6400x128 S128x128 S6400x128 where
  lhsContracting := [1]
  rhsContracting := [0]
  lhsNonContracting := [0]
  rhsNonContracting := [1]
  lhsBatch := []
  rhsBatch := []
  wf := dot_S6400x128_S128x128_S6400x128_1_0_0_1_n_n_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf

abbrev win0_0 : Pipeline.Window sig grid0 :=
  Pipeline.Window.ofSpec (Memref.whole main_v7) S6400x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S6400x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S6400x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v22) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v23) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x128 : Shape := ⟨2, ![50000, 128]⟩
abbrev S640000 : Shape := ⟨1, ![640000]⟩
abbrev S256x128 : Shape := ⟨2, ![256, 128]⟩
abbrev S128 : Shape := ⟨1, ![128]⟩
abbrev S_ : Shape := ⟨0, ![]⟩
abbrev S640000x1 : Shape := ⟨2, ![640000, 1]⟩
abbrev S640000x128 : Shape := ⟨2, ![640000, 128]⟩
abbrev S640000x256 : Shape := ⟨2, ![640000, 256]⟩
abbrev S1x128 : Shape := ⟨2, ![1, 128]⟩

abbrev nBuf : Space → Nat
  | .hbm => 55
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S640000, .i32⟩
  | .hbm, ⟨2, _⟩ => ⟨S640000, .i32⟩
  | .hbm, ⟨3, _⟩ => ⟨S256x128, .f32⟩
  | .hbm, ⟨4, _⟩ => ⟨S128, .f32⟩
  | .hbm, ⟨5, _⟩ => ⟨S_, .i32⟩
  | .hbm, ⟨6, _⟩ => ⟨S640000, .i32⟩
  | .hbm, ⟨7, _⟩ => ⟨S640000, .i1⟩
  | .hbm, ⟨8, _⟩ => ⟨S_, .i32⟩
  | .hbm, ⟨9, _⟩ => ⟨S640000, .i32⟩
  | .hbm, ⟨10, _⟩ => ⟨S640000, .i32⟩
  | .hbm, ⟨11, _⟩ => ⟨S640000, .i32⟩
  | .hbm, ⟨12, _⟩ => ⟨S640000x1, .i32⟩
  | .hbm, ⟨13, _⟩ => ⟨S640000x128, .f32⟩
  | .hbm, ⟨14, _⟩ => ⟨S_, .i32⟩
  | .hbm, ⟨15, _⟩ => ⟨S640000, .i32⟩
  | .hbm, ⟨16, _⟩ => ⟨S640000, .i1⟩
  | .hbm, ⟨17, _⟩ => ⟨S_, .i32⟩
  | .hbm, ⟨18, _⟩ => ⟨S640000, .i32⟩
  | .hbm, ⟨19, _⟩ => ⟨S640000, .i32⟩
  | .hbm, ⟨20, _⟩ => ⟨S640000, .i32⟩
  | .hbm, ⟨21, _⟩ => ⟨S640000x1, .i32⟩
  | .hbm, ⟨22, _⟩ => ⟨S640000x128, .f32⟩
  | .hbm, ⟨23, _⟩ => ⟨S640000x256, .f32⟩
  | .hbm, ⟨24, _⟩ => ⟨S640000x128, .f32⟩
  | .hbm, ⟨25, _⟩ => ⟨S1x128, .f32⟩
  | .hbm, ⟨26, _⟩ => ⟨S640000x128, .f32⟩
  | .hbm, ⟨27, _⟩ => ⟨S640000x128, .f32⟩
  | .hbm, ⟨28, _⟩ => ⟨S_, .f32⟩
  | .hbm, ⟨29, _⟩ => ⟨S50000x128, .f32⟩
  | .hbm, ⟨30, _⟩ => ⟨S640000x1, .i32⟩
  | .hbm, ⟨31, _⟩ => ⟨S50000x128, .f32⟩
  | .hbm, ⟨32, _⟩ => ⟨S50000x128, .f32⟩
  | .hbm, ⟨33, _⟩ => ⟨S50000x128, .f32⟩
  | .hbm, ⟨34, _⟩ => ⟨S_, .f32⟩
  | .hbm, ⟨35, _⟩ => ⟨S50000x128, .f32⟩
  | .hbm, ⟨36, _⟩ => ⟨S50000x128, .f32⟩
  | .hbm, ⟨37, _⟩ => ⟨S_, .f32⟩
  | .hbm, ⟨38, _⟩ => ⟨S50000x128, .f32⟩
  | .hbm, ⟨39, _⟩ => ⟨S50000x128, .f32⟩
  | .hbm, ⟨40, _⟩ => ⟨S_, .f32⟩
  | .hbm, ⟨41, _⟩ => ⟨S50000x128, .f32⟩
  | .hbm, ⟨42, _⟩ => ⟨S50000x128, .f32⟩
  | .hbm, ⟨43, _⟩ => ⟨S50000x128, .f32⟩
  | .hbm, ⟨44, _⟩ => ⟨S50000x128, .f32⟩
  | .hbm, ⟨45, _⟩ => ⟨S50000x128, .i1⟩
  | .hbm, ⟨46, _⟩ => ⟨S50000x128, .f32⟩
  | .hbm, ⟨47, _⟩ => ⟨S50000x128, .f32⟩
  | .hbm, ⟨48, _⟩ => ⟨S50000x128, .f32⟩
  | .hbm, ⟨49, _⟩ => ⟨S50000x128, .f32⟩
  | .hbm, ⟨50, _⟩ => ⟨S50000x128, .f32⟩
  | .hbm, ⟨51, _⟩ => ⟨S50000x128, .f32⟩
  | .hbm, ⟨52, _⟩ => ⟨S50000x128, .f32⟩
  | .hbm, ⟨53, _⟩ => ⟨S50000x128, .f32⟩
  | .hbm, ⟨54, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_call0_cst : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_call0_v5 : Ref sig .tc := ⟨.hbm, 46, rfl⟩
abbrev main_call0_v6 : Ref sig .tc := ⟨.hbm, 47, rfl⟩
abbrev main_call0_v7 : Ref sig .tc := ⟨.hbm, 48, rfl⟩
abbrev main_call0_v8 : Ref sig .tc := ⟨.hbm, 49, rfl⟩
abbrev main_call0_v9 : Ref sig .tc := ⟨.hbm, 50, rfl⟩
abbrev main_call0_v10 : Ref sig .tc := ⟨.hbm, 51, rfl⟩
abbrev main_call0_v11 : Ref sig .tc := ⟨.hbm, 52, rfl⟩
abbrev main_v28 : Ref sig .tc := ⟨.hbm, 53, rfl⟩
abbrev main_v29 : Ref sig .tc := ⟨.hbm, 54, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  concatenates_S640000x128_S640000x128_S640000x256_d1 : Shape.Concatenates [S640000x128, S640000x128] S640000x256 1
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  bcast_S_S50000x128 : S_.BroadcastsInDim S50000x128 (![] : Fin 0 → Fin S50000x128.rank)
  gather_S50000x128_S640000x1_S640000x128_1_0_n_n_0_1_1128_wf : GatherDims.WF S50000x128 S640000x1 S640000x128 [1] [0] [] [0] [] 1 ![1, 128]
  dot_S640000x256_S256x128_S640000x128_1_0_0_1_n_n_wf : DotDims.WF S640000x256 S256x128 S640000x128 [1] [0] [0] [1] [] []
  scatter_S50000x128_S640000x1_S640000x128_1_0_0_1_wf : ScatterDims.WF S50000x128 S640000x1 S640000x128 [1] [0] [0] 1

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def dot_S640000x256_S256x128_S640000x128_1_0_0_1_n_n : DotDims S640000x256 S256x128 S640000x128 where
  lhsContracting := [1]
  rhsContracting := [0]
  lhsNonContracting := [0]
  rhsNonContracting := [1]
  lhsBatch := []
  rhsBatch := []
  wf := dot_S640000x256_S256x128_S640000x128_1_0_0_1_n_n_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf

class Facts : Prop extends Facts₀ where

variable [Facts]
-- ==== Proof.KernelRun.lean ====
/-
  The idealized kernel's whole run, with its result named.

  The program is four stretches: host operations (the two row gathers, the two halves of the weight matrix), the
  edge kernel over 100 blocks of 6400 edges, host operations (the scatter-add of the edge features onto their
  destination rows), the node kernel over 10 blocks of 5000 rows. The contents of every buffer at each boundary are a
  fold from the launch memory: a host stretch applies its operations to what the stretch before left; a kernel leaves
  its output array at what its blocks' write-backs leave and every other buffer as it found it. Every weakly fair
  execution terminates without a fault, and in the final memory the result buffer holds the contents of the last
  boundary of that fold and the five argument arrays hold their launch contents.
-/
import proofs.«100446_j73289321939187_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the contents
    the node kernel's region leaves (the last boundary of the fold), and the argument arrays end as launched. The
    launch deals each core its buffers and the pipelines' ghost state, the four stretches chain on the thread state
    "every unscoped buffer at the boundary's contents", and the last state is read against the final memory. -/
theorem run_result : θ_run defs (onTc (τ := τ) (main (F := F))) ⟨m, fun _ => 0, ρ⟩ (fun r => ∀ c : Dev nD,
      r.2.mem ((c.tc : Thread nD τ).loc main_v23) = W4 m ρ c (Proc.devRef .tc main_v23)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v23 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

end Cert.KernelIdeal.Hand

end
-- ==== Proof.NodeValue.lean ====
/-
  The node kernel's output array as one function of its two input arrays.

  The node kernel runs over 10 blocks of 5000 rows of a [50000, 128] array. At each block it loads the block of the
  aggregated edge features `a` and the block of the node features `h`, and stores, element by element,
  `logistic a + softplus h`, softplus spelt `max h 0 + log1p (exp (0 - |h - 0|))` under a guard `h - 0 ≠ h - 0` that
  selects `h + 0`. The three windows move together (block `t` of each is rows `5000 t … 5000 t + 4999`), the blocks tile the
  array, so the output array ends holding that function of the two input arrays at every index.
-/
import proofs.«100446_j73289321939187_1_alg».proof.Proof.Gen.KernelIdeal.Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable {F : FTy → Type} [FloatOps F]

theorem zeroOff2 : (![0, 0] : Fin 2 → Nat) = fun _ => 0 := funext fun a => by fin_cases a <;> rfl

/-- One element of the node kernel's result from the aggregated feature `a` and the node feature `h`. -/
def nodeElt (a h : F .f32) : F .f32 :=
  FloatOps.addf (FloatOps.logistic a)
    (Scalar.select
      (FloatOps.cmpf .one (FloatOps.subf h (Scalar.ofBits .f32 0x00000000#32)) (FloatOps.subf h (Scalar.ofBits .f32 0x00000000#32)))
      (FloatOps.addf h (Scalar.ofBits .f32 0x00000000#32))
      (FloatOps.addf (FloatOps.maximumf h (Scalar.ofBits .f32 0x00000000#32))
        (FloatOps.log1p (FloatOps.exp (FloatOps.subf (Scalar.ofBits .f32 0x00000000#32)
          (FloatOps.absf (FloatOps.subf h (Scalar.ofBits .f32 0x00000000#32))))))))

/-- The node kernel's result array from the two whole input arrays, index by index. -/
abbrev nodeArr (a h : S50000x128.Idx → Elt F .f32) : S50000x128.Idx → Elt F .f32 := fun i => nodeElt (a i) (h i)

/-- What the body stores is `nodeElt` of its two loaded blocks, element by element. -/
theorem node_payload (x0 x1 : Vec F S5000x128 .f32) : k1_pay1 x0 x1 = fun j => nodeElt (x0 j) (x1 j) := by
  unfold k1_pay1
  simp only [shapeCast_self]
  rfl

section Region
variable (V : (c : Dev nD) → (b : Ref sig .tc) → Buf (Elt F) ((c : Thread nD τ).loc b))

/-- The three windows' block indices agree at every grid point, and the output's stay in range. -/
theorem node_index_facts : ∀ t : Fin cfg1.N, win1_0.index t (0 : Fin 2) = win1_2.index t (0 : Fin 2)
    ∧ win1_0.index t (1 : Fin 2) = win1_2.index t (1 : Fin 2)
    ∧ win1_1.index t (0 : Fin 2) = win1_2.index t (0 : Fin 2)
    ∧ win1_1.index t (1 : Fin 2) = win1_2.index t (1 : Fin 2)
    ∧ win1_2.index t (0 : Fin 2) ≤ 9 ∧ win1_2.index t (1 : Fin 2) ≤ 0 :=
  (by decide +kernel : ∀ t : Fin grid1.N, _)

/-- Every one of the ten row blocks is some grid point's. -/
theorem node_index_onto : ∀ q : Fin 10, ∃ t : Fin cfg1.N, win1_2.index t = ![q.val, 0] :=
  (by decide +kernel : ∀ q : Fin 10, ∃ t : Fin grid1.N, win1_2.index t = ![q.val, 0])

/-- What grid point `t` writes back is block `t` of `nodeArr` of the two input arrays as the region finds them. -/
theorem node_flushed (c : Dev nD) (t : Fin cfg1.N) :
    (dat1 V c).flushed 2 t = ((cfg1.win 2).blk t).view.read (Elt F) (nodeArr (V c main_v22) (V c main_arg0)) := by
  show (cfg1.win 2).cut (grid1.coords t) ((dat1 V c).after 2 t) = _
  rw [after1_2]
  unfold out1_2
  rw [View.canon_unit_zero zeroOff2]
  simp only [View.ld_unit_zero (S := S5000x128) zeroOff2]
  rw [node_payload]
  obtain ⟨e0, e1, e2, e3, e4, e5⟩ := node_index_facts t
  funext j
  show nodeElt (V c main_v22 (((cfg1.win 0).blk t).view.emb j)) (V c main_arg0 (((cfg1.win 1).blk t).view.emb j))
    = nodeElt (V c main_v22 (((cfg1.win 2).blk t).view.emb j)) (V c main_arg0 (((cfg1.win 2).blk t).view.emb j))
  have h0 : ((cfg1.win 0).blk t).view.emb j = ((cfg1.win 2).blk t).view.emb j := by
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * (j 1).val = win1_2.index t (1 : Fin 2) * 128 + 1 * (j 1).val; omega
  have h1 : ((cfg1.win 1).blk t).view.emb j = ((cfg1.win 2).blk t).view.emb j := by
    funext a; apply Fin.ext
    match a with
    | ⟨0, _⟩ => show win1_1.index t (0 : Fin 2) * 5000 + 1 * (j 0).val = win1_2.index t (0 : Fin 2) * 5000 + 1 * (j 0).val; omega
    | ⟨1, _⟩ => show win1_1.index t (1 : Fin 2) * 128 + 1 * (j 1).val = win1_2.index t (1 : Fin 2) * 128 + 1 * (j 1).val; omega
  rw [h0, h1]

/-- An index of the array is in point `t`'s block iff each coordinate is in the block's range on its axis. -/
theorem node_mem_blk (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v23).slice (win1_2.rect t)).set ↔ _
  rw [View.set_slice_whole, Rect.mem_set_unit]
  exact Iff.rfl

/-- Row `r` lies in the block of the grid point whose block index is `r / 5000`: the blocks cover the array. -/
theorem node_cover (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, ht⟩ := node_index_onto ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [node_mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- The node kernel's output array after its region: `nodeArr` of the two input arrays as the region finds them. -/
theorem node_final (c : Dev nD) :
    (dat1 V c).arrAt 2 cfg1.N = nodeArr (V c main_v22) (V c main_arg0) :=
  (dat1 V c).arrAt_eq_of_cover 2 (nodeArr (V c main_v22) (V c main_arg0)) (fun t _ => node_flushed V c t) node_cover

end Region

end Cert.KernelIdeal.Hand

end
-- ==== Proof.EdgeValue.lean ====
/-
  The edge kernel's output array as one function of its five input arrays, at the exact (extended real) reading.

  The edge kernel runs over 100 blocks of 6400 edges. At each block it loads 6400 gathered source rows `gs` and 6400
  gathered destination rows `gd` (each [6400, 128]), the two [128, 128] halves `w1`, `w2` of the weight matrix and the
  bias `b`, and stores `gs · w1 + gd · w2 + b`: element `(r, j)` is
  `(Σₖ gs[r, k] · w1[k, j] + Σₖ gd[r, k] · w2[k, j]) + b[j]`, the two products into zero accumulators (so each is the bare
  sum over the contracted axis). The row windows move with the output window, the weight and bias windows stay at
  block 0, and the 100 blocks tile the [640000, 128] output, so the output array ends holding that function of the whole
  input arrays at every index.
-/
import proofs.«100446_j73289321939187_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

theorem zeroOff2' : (![0, 0] : Fin 2 → Nat) = fun _ => 0 := funext fun a => by fin_cases a <;> rfl
theorem zeroOff1 : (![0] : Fin 1 → Nat) = fun _ => 0 := funext fun a => by fin_cases a; rfl

/-! ## One block product at an index -/

theorem blk_lhs_0 (j : S6400x128.Idx) (q : dot_S6400x128_S128x128_S6400x128_1_0_0_1_n_n.contr.Idx) :
    (dot_S6400x128_S128x128_S6400x128_1_0_0_1_n_n.lhsIdx j q 0).val = (j 0).val := by
  unfold DotDims.lhsIdx
  rw [dif_neg (show ¬(0 : Fin S6400x128.rank) ∈ dot_S6400x128_S128x128_S6400x128_1_0_0_1_n_n.lhsBatch by decide), dif_pos (show (0 : Fin S6400x128.rank) ∈ dot_S6400x128_S128x128_S6400x128_1_0_0_1_n_n.lhsNonContracting by decide)]
  rfl
theorem blk_lhs_1 (j : S6400x128.Idx) (q : dot_S6400x128_S128x128_S6400x128_1_0_0_1_n_n.contr.Idx) :
    (dot_S6400x128_S128x128_S6400x128_1_0_0_1_n_n.lhsIdx j q 1).val = (q ⟨0, by decide⟩).val :=
  dot_S6400x128_S128x128_S6400x128_1_0_0_1_n_n.lhsIdx_val_of_single rfl j q
theorem blk_rhs_0 (j : S6400x128.Idx) (q : dot_S6400x128_S128x128_S6400x128_1_0_0_1_n_n.contr.Idx) :
    (dot_S6400x128_S128x128_S6400x128_1_0_0_1_n_n.rhsIdx j q 0).val = (q ⟨0, by decide⟩).val :=
  dot_S6400x128_S128x128_S6400x128_1_0_0_1_n_n.rhsIdx_val_of_single rfl j q
theorem blk_rhs_1 (j : S6400x128.Idx) (q : dot_S6400x128_S128x128_S6400x128_1_0_0_1_n_n.contr.Idx) :
    (dot_S6400x128_S128x128_S6400x128_1_0_0_1_n_n.rhsIdx j q 1).val = (j 1).val := by
  unfold DotDims.rhsIdx
  rw [dif_neg (show ¬(1 : Fin S128x128.rank) ∈ dot_S6400x128_S128x128_S6400x128_1_0_0_1_n_n.rhsBatch by decide), dif_pos (show (1 : Fin S128x128.rank) ∈ dot_S6400x128_S128x128_S6400x128_1_0_0_1_n_n.rhsNonContracting by decide)]
  rfl

/-- A [6400, 128] block times a [128, 128] matrix into the zero accumulator, at `(r, c)`: `Σₖ l[r, k] · w[k, c]`. -/
theorem block_product_apply (l : FVec Ideal S6400x128 .bf16) (w : FVec Ideal S128x128 .bf16) (r : Fin 6400) (c : Fin 128) :
    matmul dot_S6400x128_S128x128_S6400x128_1_0_0_1_n_n none l w (constant S6400x128 .f32 0x00000000#32) (ix2 r c)
      = ∑ k : Fin 128, l (ix2 r k) * w (ix2 k c) := by
  simp only [matmul]
  rw [Ideal.matmul_constant_zero_apply, ← Equiv.sum_comp (ValueIdx.contrEquiv1 dot_S6400x128_S128x128_S6400x128_1_0_0_1_n_n 128 rfl rfl).symm]
  refine Finset.sum_congr rfl fun k _ => ?_
  have hk := ValueIdx.contrEquiv1_symm_val dot_S6400x128_S128x128_S6400x128_1_0_0_1_n_n 128 rfl rfl k
  have el : dot_S6400x128_S128x128_S6400x128_1_0_0_1_n_n.lhsIdx (ix2 r c) ((ValueIdx.contrEquiv1 dot_S6400x128_S128x128_S6400x128_1_0_0_1_n_n 128 rfl rfl).symm k) = ix2 r k := funext fun a => Fin.ext (by
    match a with
    | ⟨0, _⟩ => exact blk_lhs_0 _ _
    | ⟨1, _⟩ => exact (blk_lhs_1 _ _).trans hk)
  have er : dot_S6400x128_S128x128_S6400x128_1_0_0_1_n_n.rhsIdx (ix2 r c) ((ValueIdx.contrEquiv1 dot_S6400x128_S128x128_S6400x128_1_0_0_1_n_n 128 rfl rfl).symm k) = ix2 k c := funext fun a => Fin.ext (by
    match a with
    | ⟨0, _⟩ => exact (blk_rhs_0 _ _).trans hk
    | ⟨1, _⟩ => exact blk_rhs_1 _ _)
  rw [el, er]

/-- The bias, viewed as one row and repeated down the block, at `(r, c)`: `b[c]`. -/
theorem bias_rows_apply (b : Vec Ideal S128 .f32) (r : Fin 6400) (c : Fin 128) :
    broadcastTo S6400x128 (shapeCast S1x128 b shapeCasts_S128_S1x128) broadcasts_S1x128_S6400x128 (ix2 r c) = b (ix1 c) := by
  rw [broadcastTo_1b_ab_apply, shapeCast_a_1a_apply]

/-- What the body stores, at `(r, c)` of the block. -/
theorem edge_payload_apply (gs gd : Vec Ideal S6400x128 .bf16) (w1 w2 : Vec Ideal S128x128 .bf16) (b : Vec Ideal S128 .f32)
    (r : Fin 6400) (c : Fin 128) :
    k0_pay1 gs w1 gd w2 b (ix2 r c)
      = ((∑ k : Fin 128, gs (ix2 r k) * w1 (ix2 k c)) + ∑ k : Fin 128, gd (ix2 r k) * w2 (ix2 k c)) + b (ix1 c) := by
  unfold k0_pay1
  simp only [shapeCast_self, addf]
  rw [block_product_apply, block_product_apply, bias_rows_apply]
  rfl

/-! ## The whole array -/

/-- The edge features from the whole gathered arrays, the two weight halves and the bias, index by index. -/
abbrev edgeArr (gs gd : S640000x128.Idx → Elt Ideal .bf16) (w1 w2 : S128x128.Idx → Elt Ideal .bf16) (b : S128.Idx → Elt Ideal .f32) :
    S640000x128.Idx → Elt Ideal .f32 := fun i =>
  ((∑ k : Fin 128, gs (ix2 (⟨(i 0).val, (i 0).isLt⟩ : Fin 640000) k) * w1 (ix2 k (⟨(i 1).val, (i 1).isLt⟩ : Fin 128)))
    + ∑ k : Fin 128, gd (ix2 (⟨(i 0).val, (i 0).isLt⟩ : Fin 640000) k) * w2 (ix2 k (⟨(i 1).val, (i 1).isLt⟩ : Fin 128)))
    + b (ix1 (⟨(i 1).val, (i 1).isLt⟩ : Fin 128))

section Region
variable (V : (c : Dev nD) → (b : Ref sig .tc) → Buf (Elt Ideal) ((c : Thread nD τ).loc b))

/-- The row windows' block indices follow the output's, the weight and bias windows stay at block 0. -/
theorem edge_index_facts : ∀ t : Fin cfg0.N, win0_0.index t (0 : Fin 2) = win0_5.index t (0 : Fin 2)
    ∧ win0_0.index t (1 : Fin 2) = 0
    ∧ win0_1.index t (0 : Fin 2) = win0_5.index t (0 : Fin 2)
    ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) ≤ 99 ∧ win0_5.index t (1 : Fin 2) = 0 :=
  (by decide +kernel : ∀ t : Fin grid0.N, _)

/-- Every one of the hundred row blocks is some grid point's. -/
theorem edge_index_onto : ∀ q : Fin 100, ∃ t : Fin cfg0.N, win0_5.index t = ![q.val, 0] :=
  (by decide +kernel : ∀ q : Fin 100, ∃ t : Fin grid0.N, win0_5.index t = ![q.val, 0])

/-- Block `t` of the gathered source rows, at `y`, is the array at the row `6400 · (block index) + y₀`, column `y₁`. -/
theorem src_block_apply (c : Dev nD) (t : Fin cfg0.N) (y : S6400x128.Idx) (i : S640000x128.Idx)
    (h0 : (i 0).val = win0_5.index t (0 : Fin 2) * 6400 + (y 0).val) (h1 : (i 1).val = (y 1).val) :
    iblk0 V c 0 t y = V c main_v7 i := by
  obtain ⟨e0, e1, -⟩ := edge_index_facts t
  show V c main_v7 (((cfg0.win 0).blk t).view.emb y) = V c main_v7 i
  refine congrArg _ (funext fun a => Fin.ext ?_)
  match a with
  | ⟨0, _⟩ => show win0_0.index t (0 : Fin 2) * 6400 + 1 * (y 0).val = (i 0).val; omega
  | ⟨1, _⟩ => show win0_0.index t (1 : Fin 2) * 128 + 1 * (y 1).val = (i 1).val; omega

/-- The same for the gathered destination rows. -/
theorem dst_block_apply (c : Dev nD) (t : Fin cfg0.N) (y : S6400x128.Idx) (i : S640000x128.Idx)
    (h0 : (i 0).val = win0_5.index t (0 : Fin 2) * 6400 + (y 0).val) (h1 : (i 1).val = (y 1).val) :
    iblk0 V c 1 t y = V c main_v14 i := by
  obtain ⟨-, -, e2, e3, -⟩ := edge_index_facts t
  show V c main_v14 (((cfg0.win 1).blk t).view.emb y) = V c main_v14 i
  refine congrArg _ (funext fun a => Fin.ext ?_)
  match a with
  | ⟨0, _⟩ => show win0_1.index t (0 : Fin 2) * 6400 + 1 * (y 0).val = (i 0).val; omega
  | ⟨1, _⟩ => show win0_1.index t (1 : Fin 2) * 128 + 1 * (y 1).val = (i 1).val; omega

/-- The first weight half's one block is the whole matrix. -/
theorem w1_block_apply (c : Dev nD) (t : Fin cfg0.N) (y : S128x128.Idx) :
    iblk0 V c 2 t y = V c main_v16 y := by
  obtain ⟨-, -, -, -, e4, e5, -⟩ := edge_index_facts t
  show V c main_v16 (((cfg0.win 2).blk t).view.emb y) = V c main_v16 y
  refine congrArg _ (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- The second weight half's one block is the whole matrix. -/
theorem w2_block_apply (c : Dev nD) (t : Fin cfg0.N) (y : S128x128.Idx) :
    iblk0 V c 3 t y = V c main_v18 y := by
  obtain ⟨-, -, -, -, -, -, e6, e7, -⟩ := edge_index_facts t
  show V c main_v18 (((cfg0.win 3).blk t).view.emb y) = V c main_v18 y
  refine congrArg _ (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- The bias window's one block is the whole bias. -/
theorem bias_block_apply (c : Dev nD) (t : Fin cfg0.N) (y : S128.Idx) :
    iblk0 V c 4 t y = V c main_arg4 y := by
  obtain ⟨-, -, -, -, -, -, -, -, e8, -⟩ := edge_index_facts t
  show V c main_arg4 (((cfg0.win 4).blk t).view.emb y) = V c main_arg4 y
  refine congrArg _ (funext fun a => Fin.ext ?_)
  match a with
  | ⟨0, _⟩ => show win0_4.index t (0 : Fin 1) * 128 + 1 * (y 0).val = (y 0).val; omega

/-- What grid point `t` writes back is block `t` of `edgeArr` of the five input arrays as the region finds them. -/
theorem edge_flushed (c : Dev nD) (t : Fin cfg0.N) :
    (dat0 V c).flushed 5 t = ((cfg0.win 5).blk t).view.read (Elt Ideal)
      (edgeArr (V c main_v7) (V c main_v14) (V c main_v16) (V c main_v18) (V c main_arg4)) := by
  show (cfg0.win 5).cut (grid0.coords t) ((dat0 V c).after 5 t) = _
  rw [after0_5]
  unfold out0_5
  rw [View.canon_unit_zero zeroOff2']
  simp only [View.ld_unit_zero (S := S6400x128) zeroOff2', View.ld_unit_zero (S := S128x128) zeroOff2', View.ld_unit_zero (S := S128) zeroOff1]
  obtain ⟨-, -, -, -, -, -, -, -, -, e9, e10⟩ := edge_index_facts t
  funext j
  obtain ⟨r, cc, rfl⟩ : ∃ (r : Fin 6400) (cc : Fin 128), j = ix2 r cc := ⟨j 0, j 1, funext fun a => by
    match a with
    | ⟨0, _⟩ => rfl
    | ⟨1, _⟩ => rfl⟩
  show k0_pay1 (iblk0 V c 0 t) (iblk0 V c 2 t) (iblk0 V c 1 t) (iblk0 V c 3 t) (iblk0 V c 4 t) (ix2 r cc)
    = edgeArr (V c main_v7) (V c main_v14) (V c main_v16) (V c main_v18) (V c main_arg4) (((cfg0.win 5).blk t).view.emb (ix2 r cc))
  rw [edge_payload_apply]
  have hr : win0_5.index t (0 : Fin 2) * 6400 + 1 * r.val < 640000 := by have := r.isLt; omega
  have hc : win0_5.index t (1 : Fin 2) * 128 + 1 * cc.val < 128 := by have := cc.isLt; omega
  have hemb0 : ((((cfg0.win 5).blk t).view.emb (ix2 r cc)) 0).val = win0_5.index t (0 : Fin 2) * 6400 + 1 * r.val := rfl
  have hemb1 : ((((cfg0.win 5).blk t).view.emb (ix2 r cc)) 1).val = win0_5.index t (1 : Fin 2) * 128 + 1 * cc.val := rfl
  refine congrArg₂ (· + ·) (congrArg₂ (· + ·) (Finset.sum_congr rfl fun k _ => ?_) (Finset.sum_congr rfl fun k _ => ?_)) ?_
  · refine congrArg₂ (· * ·) (src_block_apply V c t (ix2 r k) _ ?_ ?_) ((w1_block_apply V c t (ix2 k cc)).trans (congrArg _ ?_))
    · show _ = win0_5.index t (0 : Fin 2) * 6400 + r.val; rw [hemb0]; omega
    · rfl
    · funext a; apply Fin.ext
      match a with
      | ⟨0, _⟩ => rfl
      | ⟨1, _⟩ => show cc.val = _; rw [hemb1]; omega
  · refine congrArg₂ (· * ·) (dst_block_apply V c t (ix2 r k) _ ?_ ?_) ((w2_block_apply V c t (ix2 k cc)).trans (congrArg _ ?_))
    · show _ = win0_5.index t (0 : Fin 2) * 6400 + r.val; rw [hemb0]; omega
    · rfl
    · funext a; apply Fin.ext
      match a with
      | ⟨0, _⟩ => rfl
      | ⟨1, _⟩ => show cc.val = _; rw [hemb1]; omega
  · refine (bias_block_apply V c t (ix1 cc)).trans (congrArg _ ?_)
    funext a; apply Fin.ext
    match a with
    | ⟨0, _⟩ => show cc.val = _; rw [hemb1]; omega

/-- An index of the array is in point `t`'s block iff each coordinate is in the block's range on its axis. -/
theorem edge_mem_blk (t : Fin cfg0.N) (i : S640000x128.Idx) :
    i ∈ ((cfg0.win 5).blk t).view.set ↔ ∀ a : Fin 2, win0_5.index t a * S6400x128.size a ≤ (i a).val ∧ (i a).val < win0_5.index t a * S6400x128.size a + S6400x128.size a := by
  show i ∈ ((View.whole main_v19).slice (win0_5.rect t)).set ↔ _
  rw [View.set_slice_whole, Rect.mem_set_unit]
  exact Iff.rfl

/-- Edge `e` lies in the block of the grid point whose block index is `e / 6400`: the blocks cover the array. -/
theorem edge_cover (i : S640000x128.Idx) :
    ∃ t : Fin cfg0.N, (cfg0.win 5).flush t = true ∧ i ∈ ((cfg0.win 5).blk t).view.set := by
  have hi0 : (i 0).val < 640000 := (i 0).isLt
  have hi1 : (i 1).val < 128 := (i 1).isLt
  obtain ⟨t, ht⟩ := edge_index_onto ⟨(i 0).val / 6400, by omega⟩
  have q0 : win0_5.index t (0 : Fin 2) = (i 0).val / 6400 := congrFun ht 0
  have q1 : win0_5.index t (1 : Fin 2) = 0 := congrFun ht 1
  refine ⟨t, flush0_5 t, ?_⟩
  rw [edge_mem_blk]
  intro a
  match a with
  | ⟨0, _⟩ => show win0_5.index t (0 : Fin 2) * 6400 ≤ (i 0).val ∧ (i 0).val < win0_5.index t (0 : Fin 2) * 6400 + 6400; omega
  | ⟨1, _⟩ => show win0_5.index t (1 : Fin 2) * 128 ≤ (i 1).val ∧ (i 1).val < win0_5.index t (1 : Fin 2) * 128 + 128; omega

/-- The edge kernel's output array after its region: `edgeArr` of the five input arrays as the region finds them. -/
theorem edge_final (c : Dev nD) :
    (dat0 V c).arrAt 5 cfg0.N = edgeArr (V c main_v7) (V c main_v14) (V c main_v16) (V c main_v18) (V c main_arg4) :=
  (dat0 V c).arrAt_eq_of_cover 5 (edgeArr (V c main_v7) (V c main_v14) (V c main_v16) (V c main_v18) (V c main_arg4))
    (fun t _ => edge_flushed V c t) edge_cover

end Region

end Cert.KernelIdeal.Hand

end
-- ==== Proof.HostStages.lean ====
/-
  What the two host stretches leave in the buffers the kernels read.

  Before the edge kernel the host computes, from the arguments `h` (node features), `src`, `dst` (edge endpoints),
  `W` (weights) and `b` (bias): the two row gathers of `h` narrowed to bf16, at the endpoints with a negative index
  wrapped by 50000, and the two [128, 128] halves of `W` narrowed to bf16. Between the two kernels it scatter-adds the
  edge features into a zero [50000, 128] array at the rows `dst`. No host operation and no kernel writes an argument,
  so wherever an argument is read it still holds its launch contents.
-/
import proofs.«100446_j73289321939187_1_alg».proof.Proof.Gen.KernelIdeal.Frame
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## The host terms -/

/-- An endpoint array with each negative index moved up by 50000, as a column. -/
def wrappedColumn (e : IVec S640000 32) : IVec S640000x1 32 :=
  broadcastInDim S640000x1 ![0] bcast_S640000_S640000x1_0
    (select (cmpi .slt e (broadcastInDim S640000 ![] bcast_S_S640000 (constantI S_ 32 0#32)))
      (addi e (broadcastInDim S640000 ![] bcast_S_S640000 (constantI S_ 32 50000#32))) e)

/-- The rows of the narrowed node features at the wrapped endpoints. -/
def gatheredRows (h : FVec F S50000x128 .f32) (e : IVec S640000 32) : FVec F S640000x128 .bf16 :=
  Host.gather gather_S50000x128_S640000x1_S640000x128_1_0_n_n_0_1_1128 (truncf .bf16 h bitsLt_bf16_f32) (wrappedColumn e)

/-- The top half of the weight matrix, narrowed. -/
def weightTop (w : FVec F S256x128 .f32) : FVec F S128x128 .bf16 :=
  truncf .bf16 (extractStridedSlice S128x128 ![0, 0] w slices_S256x128_S128x128_0_0) bitsLt_bf16_f32

/-- The bottom half of the weight matrix, narrowed. -/
def weightBottom (w : FVec F S256x128 .f32) : FVec F S128x128 .bf16 :=
  truncf .bf16 (extractStridedSlice S128x128 ![128, 0] w slices_S256x128_S128x128_128_0) bitsLt_bf16_f32

/-- The edge features `u` summed into a zero array at the rows `e`. -/
def aggregated (e : IVec S640000 32) (u : FVec F S640000x128 .f32) : FVec F S50000x128 .f32 :=
  Host.scatterAdd scatter_S50000x128_S640000x1_S640000x128_1_0_0_1
    (broadcastInDim S50000x128 ![] bcast_S_S50000x128 (constant S_ .f32 0x00000000#32))
    (broadcastInDim S640000x1 ![0] bcast_S640000_S640000x1_0 e) u

/-! ## At the edge kernel's entry -/

theorem entry0_src (c : Dev nD) :
    V1 m ρ c main_v7 = gatheredRows (m ((c : Thread nD τ).loc main_arg0)) (m ((c : Thread nD τ).loc main_arg1)) := by
  show StableHlo.after hostOps0 (W0 m ρ c) (Proc.devRef .tc main_v7) = _
  after_results <;> rfl

theorem entry0_dst (c : Dev nD) :
    V1 m ρ c main_v14 = gatheredRows (m ((c : Thread nD τ).loc main_arg0)) (m ((c : Thread nD τ).loc main_arg2)) := by
  show StableHlo.after hostOps0 (W0 m ρ c) (Proc.devRef .tc main_v14) = _
  after_results <;> rfl

theorem entry0_w1 (c : Dev nD) : V1 m ρ c main_v16 = weightTop (m ((c : Thread nD τ).loc main_arg3)) := by
  show StableHlo.after hostOps0 (W0 m ρ c) (Proc.devRef .tc main_v16) = _
  after_results <;> rfl

theorem entry0_w2 (c : Dev nD) : V1 m ρ c main_v18 = weightBottom (m ((c : Thread nD τ).loc main_arg3)) := by
  show StableHlo.after hostOps0 (W0 m ρ c) (Proc.devRef .tc main_v18) = _
  after_results <;> rfl

theorem entry0_bias (c : Dev nD) : V1 m ρ c main_arg4 = m ((c : Thread nD τ).loc main_arg4) := by
  show StableHlo.after hostOps0 (W0 m ρ c) (Proc.devRef .tc main_arg4) = _
  after_results <;> rfl

/-! ## Between the kernels -/

/-- The edge kernel's region leaves `dst` as the first host stretch left it: as launched. -/
theorem exit0_dst (c : Dev nD) : W2 m ρ c (Proc.devRef .tc main_arg2) = m ((c : Thread nD τ).loc main_arg2) := by
  refine (W2_of_ne m ρ c main_arg2 (by decide)).trans ?_
  show StableHlo.after hostOps0 (W0 m ρ c) (Proc.devRef .tc main_arg2) = _
  after_results <;> rfl

/-- The edge kernel's region leaves the node features as launched. -/
theorem exit0_feat (c : Dev nD) : W2 m ρ c (Proc.devRef .tc main_arg0) = m ((c : Thread nD τ).loc main_arg0) := by
  refine (W2_of_ne m ρ c main_arg0 (by decide)).trans ?_
  show StableHlo.after hostOps0 (W0 m ρ c) (Proc.devRef .tc main_arg0) = _
  after_results <;> rfl

/-! ## At the node kernel's entry -/

theorem entry1_agg (c : Dev nD) :
    V3 m ρ c main_v22 = aggregated (m ((c : Thread nD τ).loc main_arg2)) (W2 m ρ c (Proc.devRef .tc main_v19)) := by
  show StableHlo.after hostOps1 (W2 m ρ c) (Proc.devRef .tc main_v22) = _
  after_results
  rw [exit0_dst]
  rfl

theorem entry1_feat (c : Dev nD) : V3 m ρ c main_arg0 = m ((c : Thread nD τ).loc main_arg0) := by
  show StableHlo.after hostOps1 (W2 m ρ c) (Proc.devRef .tc main_arg0) = _
  after_results
  exact exit0_feat m ρ c

end Cert.KernelIdeal.Hand

end
-- ==== Proof.KernelValue.lean ====
/-
  The idealized kernel's result as one function of its five arguments.

  Reading the run stretch by stretch at the exact (extended real) instance: the result buffer ends at the node
  kernel's output array, which is `logistic a + softplus h` element by element of the aggregated edge features `a` and
  the node features `h`; `a` is the scatter-add, at the rows `dst`, of the edge kernel's output array; and that array is
  `gs · W₁ + gd · W₂ + b` of the rows of `h` gathered at `src` and at `dst`, the two halves of `W`, and `b`.
-/
import proofs.«100446_j73289321939187_1_alg».proof.Proof.KernelRun
import proofs.«100446_j73289321939187_1_alg».proof.Proof.NodeValue
import proofs.«100446_j73289321939187_1_alg».proof.Proof.EdgeValue
import proofs.«100446_j73289321939187_1_alg».proof.Proof.HostStages

set_option maxRecDepth 16384

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The edge features of the whole edge list: `h[src] · W₁ + h[dst] · W₂ + b`. -/
def edgeFeatures (h : FVec Ideal S50000x128 .f32) (src dst : IVec S640000 32) (w : FVec Ideal S256x128 .f32) (b : FVec Ideal S128 .f32) :
    FVec Ideal S640000x128 .f32 :=
  edgeArr (gatheredRows h src) (gatheredRows h dst) (weightTop w) (weightBottom w) b

/-- The kernel's result: the node update of the edge features aggregated at the destination rows. -/
def kernelResult (h : FVec Ideal S50000x128 .f32) (src dst : IVec S640000 32) (w : FVec Ideal S256x128 .f32) (b : FVec Ideal S128 .f32) :
    FVec Ideal S50000x128 .f32 :=
  nodeArr (aggregated dst (edgeFeatures h src dst w b)) h

/-- After the edge kernel's region its output array holds the edge features of the launch arguments. -/
theorem edge_array (c : Dev nD) :
    W2 m ρ c (Proc.devRef .tc main_v19) = edgeFeatures (m ((c : Thread nD τ).loc main_arg0)) (m ((c : Thread nD τ).loc main_arg1))
      (m ((c : Thread nD τ).loc main_arg2)) (m ((c : Thread nD τ).loc main_arg3)) (m ((c : Thread nD τ).loc main_arg4)) := by
  refine (W2_arr m ρ c 5).trans ((edge_final (V1 m ρ) c).trans ?_)
  rw [entry0_src, entry0_dst, entry0_w1, entry0_w2, entry0_bias]
  rfl

/-- After the node kernel's region its output array holds the kernel's result of the launch arguments. -/
theorem result_array (c : Dev nD) :
    W4 m ρ c (Proc.devRef .tc main_v23) = kernelResult (m ((c : Thread nD τ).loc main_arg0)) (m ((c : Thread nD τ).loc main_arg1))
      (m ((c : Thread nD τ).loc main_arg2)) (m ((c : Thread nD τ).loc main_arg3)) (m ((c : Thread nD τ).loc main_arg4)) := by
  refine (W4_arr m ρ c 2).trans ((node_final (V3 m ρ) c).trans ?_)
  rw [entry1_agg, entry1_feat, edge_array]
  rfl

/-- Every weakly fair execution of the idealized kernel terminates without a fault, with the result buffer at
    `kernelResult` of the launch arguments and the arguments unchanged. -/
theorem run_value : θ_run defs (onTc (τ := τ) (main (F := Ideal))) ⟨m, fun _ => 0, ρ⟩ (fun r => ∀ c : Dev nD,
      r.2.mem ((c.tc : Thread nD τ).loc main_v23) = kernelResult (m ((c : Thread nD τ).loc main_arg0)) (m ((c : Thread nD τ).loc main_arg1))
        (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (result_array m ρ c), (h c).2⟩) (run_result m ρ)

end Cert.KernelIdeal.Hand

end
-- ==== Proof.RefBridge.lean ====
/-
  The kernel's result and the reference's result are one function of the arguments, at the exact reading.

  Three facts, index by index.
  • The edge features. The reference multiplies the joined rows `[h[src] | h[dst]]` (256 columns) by the whole weight
    matrix; the sum over the 256 joined columns splits into the first 128 — the source row against the top half of
    the weights — and the last 128 — the destination row against the bottom half: the kernel's two block products.
    Narrowing to bf16 is the identity at this reading, and only associativity and commutativity of the extended reals'
    addition are used, so no finiteness of the inputs is needed.
  • The aggregation is the same scatter-add at the same rows on both sides, applied to equal arrays.
  • The node update. The kernel's `logistic a` is the reference's `1 / (1 + exp (-a))` by definition; its softplus differs
    from the reference's only in writing `0 - |x|` for `-|x|`, and in guarding with the ordered "not equal" where the
    reference uses the unordered one: on the extended reals the two comparisons are the same.
-/
import proofs.«100446_j73289321939187_1_alg».proof.Proof.KernelValue
import proofs.«100446_j73289321939187_1_alg».proof.Proof.Gen.ReferenceIdeal.Read

set_option maxRecDepth 16384

noncomputable section

open scoped BigOperators

namespace Cert.Bridge

open Idealize.ShloMosaic Idealize.ShloMosaic.ValueIdx
open Cert.KernelIdeal Cert.KernelIdeal.Hand

/-! ## The edge features -/

/-- A sum over 256 positions is the sum over the first 128 plus the sum over the last 128. -/
theorem sum_two_halves {M : Type*} [AddCommMonoid M] (f : Fin 256 → M) :
    ∑ k : Fin 256, f k = (∑ k : Fin 128, f ⟨k.val, by omega⟩) + ∑ k : Fin 128, f ⟨128 + k.val, by omega⟩ :=
  Fin.sum_univ_add (a := 128) (b := 128) f

/-- The kernel's gathered rows are the reference's: narrowing is the identity, the wrapped index column the same. -/
theorem gathered_src (h : FVec Ideal S50000x128 .f32) (e : IVec S640000 32) :
    gatheredRows (F := Ideal) h e = Cert.ReferenceIdeal.Read.val_main_v6 (F := Ideal) h e := rfl
theorem gathered_dst (h : FVec Ideal S50000x128 .f32) (e : IVec S640000 32) :
    gatheredRows (F := Ideal) h e = Cert.ReferenceIdeal.Read.val_main_v13 (F := Ideal) h e := rfl

/-- The top half of the weights at `(k, j)` is the matrix at `(k, j)`. -/
theorem weightTop_apply (w : FVec Ideal S256x128 .f32) (k j : Fin 128) (i : S256x128.Idx)
    (h0 : (i 0).val = k.val) (h1 : (i 1).val = j.val) : weightTop (F := Ideal) w (ix2 k j) = w i := by
  show extractStridedSlice S128x128 ![0, 0] w Cert.KernelIdeal.Facts₀.slices_S256x128_S128x128_0_0 (ix2 k j) = w i
  refine extractStridedSlice_apply _ w _ _ i fun a => ?_
  match a with
  | ⟨0, _⟩ => show (i 0).val = 0 + k.val; omega
  | ⟨1, _⟩ => show (i 1).val = 0 + j.val; omega

/-- The bottom half of the weights at `(k, j)` is the matrix at `(128 + k, j)`. -/
theorem weightBottom_apply (w : FVec Ideal S256x128 .f32) (k j : Fin 128) (i : S256x128.Idx)
    (h0 : (i 0).val = 128 + k.val) (h1 : (i 1).val = j.val) : weightBottom (F := Ideal) w (ix2 k j) = w i := by
  show extractStridedSlice S128x128 ![128, 0] w Cert.KernelIdeal.Facts₀.slices_S256x128_S128x128_128_0 (ix2 k j) = w i
  refine extractStridedSlice_apply _ w _ _ i fun a => ?_
  match a with
  | ⟨0, _⟩ => show (i 0).val = 128 + k.val; omega
  | ⟨1, _⟩ => show (i 1).val = 0 + j.val; omega

/-- The kernel's edge features are the reference's. -/
theorem edge_eq (h : FVec Ideal S50000x128 .f32) (src dst : IVec S640000 32) (w : FVec Ideal S256x128 .f32) (b : FVec Ideal S128 .f32) :
    edgeFeatures h src dst w b = Cert.ReferenceIdeal.Read.val_main_v18 (F := Ideal) h src dst w b := by
  funext i
  obtain ⟨e, j, rfl⟩ : ∃ (e : Fin 640000) (j : Fin 128), i = ix2 e j := ⟨i 0, i 1, eq_ix2 i⟩
  rw [Cert.ReferenceIdeal.Read.val_main_v18_apply, Cert.ReferenceIdeal.Read.val_main_v15_apply,
    Cert.ReferenceIdeal.Read.val_main_v17_apply, Cert.ReferenceIdeal.Read.val_main_v16_apply, sum_two_halves, Ideal.addf_def]
  show ((∑ k : Fin 128, gatheredRows h src (ix2 e k) * weightTop w (ix2 k j))
      + ∑ k : Fin 128, gatheredRows h dst (ix2 e k) * weightBottom w (ix2 k j)) + b (ix1 j) = _
  refine congrArg₂ (· + ·) (congrArg₂ (· + ·) (Finset.sum_congr rfl fun k _ => ?_) (Finset.sum_congr rfl fun k _ => ?_)) ?_
  · refine congrArg₂ (· * ·) ?_ (weightTop_apply w k j _ rfl rfl)
    rw [gathered_src]
    unfold Cert.ReferenceIdeal.Read.val_main_v14
    refine Eq.symm (concatenate_pair_apply_left 1 _ _ _ _ (by rfl) (ix2 e k) fun a => ?_)
    match a with
    | ⟨0, _⟩ => rfl
    | ⟨1, _⟩ => rfl
  · refine congrArg₂ (· * ·) ?_ (weightBottom_apply w k j _ rfl rfl)
    rw [gathered_dst]
    unfold Cert.ReferenceIdeal.Read.val_main_v14
    refine Eq.symm (concatenate_pair_apply_right 1 _ _ _ _ (by rfl) (by rfl) (ix2 e k) (fun a ha => ?_) ?_)
    · match a with
      | ⟨0, _⟩ => rfl
      | ⟨1, _⟩ => exact absurd rfl ha
    · show k.val + 128 = 128 + k.val
      omega
  · exact congrArg b (funext fun a => by
      match a with
      | ⟨0, _⟩ => rfl)

/-! ## The aggregation -/

/-- The kernel's aggregated features are the reference's. -/
theorem agg_eq (h : FVec Ideal S50000x128 .f32) (src dst : IVec S640000 32) (w : FVec Ideal S256x128 .f32) (b : FVec Ideal S128 .f32) :
    aggregated (F := Ideal) dst (edgeFeatures h src dst w b) = Cert.ReferenceIdeal.Read.val_main_v21 (F := Ideal) h src dst w b := by
  rw [edge_eq]
  rfl

/-! ## The node update -/

/-- The single-precision word of one denotes one. -/
theorem ofBits_one : Ideal.ofBits .f32 0x3F800000#32 = 1 := by
  have h : (8388608 : ℝ) * ((2 : ℝ) ^ 23)⁻¹ = 1 := by norm_num
  simp [Ideal.ofBits, Ideal.ieee]
  exact_mod_cast h

/-- One element of the reference's result from the aggregated feature `a` and the node feature `x`. -/
def refElt (a x : Ideal .f32) : Ideal .f32 :=
  FloatOps.addf
    (FloatOps.hostDivf (FloatOps.ofBits .f32 0x3F800000#32)
      (FloatOps.addf (FloatOps.ofBits .f32 0x3F800000#32) (FloatOps.hostUnary .exp (FloatOps.hostNegf a))))
    (Scalar.select
      (FloatOps.cmpf .une (FloatOps.subf x (FloatOps.ofBits .f32 0x00000000#32)) (FloatOps.subf x (FloatOps.ofBits .f32 0x00000000#32)))
      (FloatOps.addf x (FloatOps.ofBits .f32 0x00000000#32))
      (FloatOps.addf (FloatOps.maximumf x (FloatOps.ofBits .f32 0x00000000#32))
        (FloatOps.hostUnary .log1p (FloatOps.hostUnary .exp (FloatOps.hostNegf
          (FloatOps.hostAbsf (FloatOps.subf x (FloatOps.ofBits .f32 0x00000000#32))))))))

/-- The reference's result at an index is `refElt` of its aggregated feature and the node feature there. -/
theorem ref_apply (h : FVec Ideal S50000x128 .f32) (src dst : IVec S640000 32) (w : FVec Ideal S256x128 .f32) (b : FVec Ideal S128 .f32)
    (i : S50000x128.Idx) :
    Cert.ReferenceIdeal.Read.val_main_v29 (F := Ideal) h src dst w b i
      = refElt (Cert.ReferenceIdeal.Read.val_main_v21 (F := Ideal) h src dst w b i) (h i) := rfl

/-- The kernel's node update is the reference's, element by element. -/
theorem node_elt_eq (a x : Ideal .f32) : nodeElt (F := Ideal) a x = refElt a x := by
  unfold nodeElt refElt
  simp only [Ideal.addf_def, Ideal.subf_def, Ideal.logistic_def, Ideal.maximumf_def, Ideal.hostUnary_exp_def,
    Ideal.hostUnary_log1p_def, Ideal.ofBits_def, Ideal.ofBits_zero_f32, ofBits_one]
  show Ideal.div 1 (1 + Ideal.exp (-a))
      + Scalar.select (Ideal.cmp .une (x - 0) (x - 0)) (x + 0) (max x 0 + Ideal.log1p (Ideal.exp (0 - max (x - 0) (-(x - 0)))))
    = Ideal.div 1 (1 + Ideal.exp (-a))
      + Scalar.select (Ideal.cmp .une (x - 0) (x - 0)) (x + 0) (max x 0 + Ideal.log1p (Ideal.exp (-(max (x - 0) (-(x - 0))))))
  rw [sub_eq_add_neg (0 : EReal), zero_add]

/-! ## The results -/

/-- The kernel's result is the reference's result, as functions of the five arguments. -/
theorem result_eq (h : FVec Ideal S50000x128 .f32) (src dst : IVec S640000 32) (w : FVec Ideal S256x128 .f32) (b : FVec Ideal S128 .f32) :
    kernelResult h src dst w b = Cert.ReferenceIdeal.Read.val_main_v29 (F := Ideal) h src dst w b := by
  funext i
  rw [ref_apply, ← agg_eq, ← node_elt_eq]
  rfl

end Cert.Bridge

end
-- ==== Proof.lean ====
/-
  Message passing on a graph: the kernel against its reference, over the extended reals.

  Both programs compute, from node features `h` [50000, 128], edge endpoints `src`, `dst` [640000], weights `W`
  [256, 128] and a bias `b` [128]: per edge the linear map of the joined endpoint rows,
  `[h[src] | h[dst]] · W + b`; the sum of those edge features over the edges arriving at each node; and per node
  `sigmoid (sum) + softplus (h)`.

  The kernel splits the linear map into `h[src] · W₁ + h[dst] · W₂` (the top and bottom halves of `W`), computes it in a
  tiled kernel over 100 blocks of edges from bf16 copies, and the node update in a second tiled kernel over 10 blocks of
  rows; gather and scatter-add stay on the host in both programs. At the exact reading a change of float format is the
  identity and a sum may be regrouped freely, so the two results are one function of the arguments
  (Proof/RefBridge.lean); the kernel's run is read stretch by stretch (Proof/KernelRun.lean, Proof/HostStages.lean,
  Proof/EdgeValue.lean, Proof/NodeValue.lean, Proof/KernelValue.lean), the reference's is a straight line of host
  operations. The equality needs no precondition on the inputs: it never divides, cancels or distributes.
-/
import proofs.«100446_j73289321939187_1_alg».proof.Defs
import proofs.«100446_j73289321939187_1_alg».proof.Proof.Gen.Kernel
import proofs.«100446_j73289321939187_1_alg».proof.Proof.Gen.Kernel.Skeleton
import proofs.«100446_j73289321939187_1_alg».proof.Proof.Gen.Kernel.Launch
import proofs.«100446_j73289321939187_1_alg».proof.Proof.Gen.Kernel.Points
import proofs.«100446_j73289321939187_1_alg».proof.Proof.Gen.Kernel.Frame
import proofs.«100446_j73289321939187_1_alg».proof.Proof.Gen.KernelIdeal
import proofs.«100446_j73289321939187_1_alg».proof.Proof.Gen.KernelIdeal.Skeleton
import proofs.«100446_j73289321939187_1_alg».proof.Proof.Gen.KernelIdeal.Launch
import proofs.«100446_j73289321939187_1_alg».proof.Proof.Gen.KernelIdeal.Points
import proofs.«100446_j73289321939187_1_alg».proof.Proof.Gen.KernelIdeal.Frame
import proofs.«100446_j73289321939187_1_alg».proof.Proof.Gen.ReferenceIdeal
import proofs.«100446_j73289321939187_1_alg».proof.Proof.Gen.Pre_finite_inputs
import proofs.«100446_j73289321939187_1_alg».proof.Proof.Gen.ReferenceIdeal.Run
import proofs.«100446_j73289321939187_1_alg».proof.Proof.Gen.ReferenceIdeal.Read
import proofs.«100446_j73289321939187_1_alg».proof.Proof.KernelValue
import proofs.«100446_j73289321939187_1_alg».proof.Proof.RefBridge
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a straight line of host operations: it runs, and writes no argument. -/
theorem frame_reference : Cert.frame_ReferenceIdeal := fun m ρ _ =>
  (θ_run Cert.ReferenceIdeal.defs _ _).mono (fun _ h c => (h c).2) (Cert.ReferenceIdeal.Value.run (F := Ideal) m ρ)

/-- The idealized kernel is the kernel's own text read at the exact instance: nothing was rewritten. -/
theorem preserves : Cert.preserves_Kernel_KernelIdeal := trivial

/-- From memories agreeing on the arguments the two idealized programs end with equal results: the kernel's is
    `kernelResult` of the arguments, the reference's its composed host term, and the two are one function. -/
theorem algebraic : Cert.algebraic_KernelIdeal_ReferenceIdeal := by
  intro m ρ m' ρ' _ hagree
  refine ⟨_, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, (hagree c).1, (hagree c).2.1, (hagree c).2.2.1, (hagree c).2.2.2.1, (hagree c).2.2.2.2]
  exact (Cert.Bridge.result_eq _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
